-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  One step of an LSTM cell whose four gates share one pre-activation, at the ideal values (extended reals, exact
  operations). For row `r` of the batch and hidden unit `j`

      z(r, j) = Σ_k h(r, k) · Wh(j, k)  +  Σ_k x(r, k) · Wx(j, k)  +  (bh(j) + bx(j)),
      s = 1 / (1 + e^(-z)),   g = tanh z,
      c'(r, j) = s · (c(r, j) + g),        h'(r, j) = s · tanh c'(r, j).

  Two laws of the extended reals are all the algebra there is. Addition is commutative and associative at the
  infinities too, so the four summands of `z` may be grouped in any way. And the gate `s` is always a real number
  that is not negative (its limits at the two infinities are `0` and `1`), so it distributes over a sum of ANY two
  extended reals: `s · (c + g) = s · c + s · g` with no finiteness asked of `c` or `g`.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.LstmSpec

open Idealize.ShloMosaic Idealize.ShloMosaic.ValueIdx

/-! ## One entry -/

/-- The pre-activation the four gates share, from one row of `h`, one row of `Wh`, one row of `x`, one row of `Wx`
    (a row of a weight matrix is a column of its transpose) and the summed bias. -/
def pre (hrow whrow xrow wxrow : Fin 1024 → EReal) (bias : EReal) : EReal :=
  (∑ k : Fin 1024, hrow k * whrow k) + (∑ k : Fin 1024, xrow k * wxrow k) + bias

/-- The new cell state: the gate times (old cell state + candidate). -/
def cell (z c : EReal) : EReal := Ideal.logistic z * (c + Ideal.tanh z)

/-- The new hidden state: the gate times tanh of the new cell state. -/
def hid (z c : EReal) : EReal := Ideal.logistic z * Ideal.tanh (cell z c)

/-- The gate `1 / (1 + e^(-z))` is a real number in `[0, ∞)` at every extended real `z`: `0` at `-∞`, `1` at `+∞`,
    the reciprocal of a positive real in between. -/
theorem gate_real (z : EReal) : ∃ r : ℝ, 0 ≤ r ∧ Ideal.logistic z = (r : EReal) := by
  induction z using EReal.rec with
  | bot => exact ⟨0, le_rfl, by rw [Ideal.logistic_bot, EReal.coe_zero]⟩
  | coe x => exact ⟨(1 + Real.exp (-x))⁻¹, inv_nonneg.mpr (by positivity), Ideal.logistic_coe x⟩
  | top => exact ⟨1, zero_le_one, by rw [Ideal.logistic_top, EReal.coe_one]⟩

/-- So the gate distributes over a sum of any two extended reals. -/
theorem gate_distrib (z c g : EReal) :
    Ideal.logistic z * (c + g) = Ideal.logistic z * c + Ideal.logistic z * g := by
  obtain ⟨r, hr, e⟩ := gate_real z
  rw [e]
  exact EReal.left_distrib_of_nonneg_of_ne_top (EReal.coe_nonneg.mpr hr) (EReal.coe_ne_top r) c g

/-- The four summands of the pre-activation, grouped as `((A + bh) + B) + bx` or as `(A + B) + (bh + bx)`. -/
theorem pre_regroup (A B bh bx : EReal) : A + bh + B + bx = A + B + (bh + bx) := by
  rw [add_assoc A bh B, add_comm bh B, ← add_assoc A B bh, add_assoc (A + B) bh bx]

/-- The gate spelled with the quotient, the sum, the exponential and the negation, the two ones as their float words. -/
theorem gate_spelled (z : EReal) :
    Ideal.div (Ideal.ofBits .f32 0x3F800000#32) (Ideal.ofBits .f32 0x3F800000#32 + Ideal.exp (-z)) = Ideal.logistic z := by
  rw [Ideal.ofBits_one_f32]
  rfl

/-! ## The arrays -/

/-- The two biases added, at unit `j`. -/
def biasAt (bh bx : (⟨1, ![1024]⟩ : Shape).Idx → EReal) (j : Fin 1024) : EReal := bh (ix1 j) + bx (ix1 j)

/-- The pre-activation at row `r`, unit `j`, from the argument arrays: `x`, `h` are [8192, 1024], the weights
    [1024, 1024] indexed (unit, input), the biases [1024]. -/
def preAt (x h : (⟨2, ![8192, 1024]⟩ : Shape).Idx → EReal) (Wh Wx : (⟨2, ![1024, 1024]⟩ : Shape).Idx → EReal)
    (bh bx : (⟨1, ![1024]⟩ : Shape).Idx → EReal) (r : Fin 8192) (j : Fin 1024) : EReal :=
  pre (fun k => h (ix2 r k)) (fun k => Wh (ix2 j k)) (fun k => x (ix2 r k)) (fun k => Wx (ix2 j k)) (biasAt bh bx j)

/-- The new cell state, as one array. -/
def cellArr (x h c : (⟨2, ![8192, 1024]⟩ : Shape).Idx → EReal) (Wh Wx : (⟨2, ![1024, 1024]⟩ : Shape).Idx → EReal)
    (bh bx : (⟨1, ![1024]⟩ : Shape).Idx → EReal) : (⟨2, ![8192, 1024]⟩ : Shape).Idx → EReal :=
  fun i => cell (preAt x h Wh Wx bh bx (i 0) (i 1)) (c i)

/-- The new hidden state, as one array. -/
def hidArr (x h c : (⟨2, ![8192, 1024]⟩ : Shape).Idx → EReal) (Wh Wx : (⟨2, ![1024, 1024]⟩ : Shape).Idx → EReal)
    (bh bx : (⟨1, ![1024]⟩ : Shape).Idx → EReal) : (⟨2, ![8192, 1024]⟩ : Shape).Idx → EReal :=
  fun i => hid (preAt x h Wh Wx bh bx (i 0) (i 1)) (c i)

/-- The new-cell-state array at row `r`, unit `j`. -/
theorem cellArr_ix2 (x h c : (⟨2, ![8192, 1024]⟩ : Shape).Idx → EReal) (Wh Wx : (⟨2, ![1024, 1024]⟩ : Shape).Idx → EReal)
    (bh bx : (⟨1, ![1024]⟩ : Shape).Idx → EReal) (r : Fin 8192) (j : Fin 1024) :
    cellArr x h c Wh Wx bh bx (ix2 r j) = cell (preAt x h Wh Wx bh bx r j) (c (ix2 r j)) := rfl

/-- The new-hidden-state array at row `r`, unit `j`. -/
theorem hidArr_ix2 (x h c : (⟨2, ![8192, 1024]⟩ : Shape).Idx → EReal) (Wh Wx : (⟨2, ![1024, 1024]⟩ : Shape).Idx → EReal)
    (bh bx : (⟨1, ![1024]⟩ : Shape).Idx → EReal) (r : Fin 8192) (j : Fin 1024) :
    hidArr x h c Wh Wx bh bx (ix2 r j) = hid (preAt x h Wh Wx bh bx r j) (c (ix2 r j)) := rfl

end Cert.LstmSpec

end
-- ==== Proof.RefIsSpec.lean ====
/-
  The reference computes the cell of Spec.lean. Read at row `r`, unit `j`, its pre-activation is
  `((Σ_k h(r,k)·Wh(j,k) + bh(j)) + Σ_k x(r,k)·Wx(j,k)) + bx(j)` — the transposed weights read back at (j, k), the
  biases through their two broadcasts — which is Spec's grouping by commutativity and associativity; its gate is the
  quotient `1 / (1 + e^(-z))` spelled out; and its new cell state `s·c + s·g` is `s·(c + g)` because the gate is a
  real number that is not negative.
-/
import proofs.«163879_j33930241639040_2_alg».proof.Proof.Gen.ReferenceIdeal.Read
import proofs.«163879_j33930241639040_2_alg».proof.Proof.Spec

noncomputable section

open scoped BigOperators

namespace Cert.ReferenceIdeal.IsSpec

open Cert.ReferenceIdeal Cert.ReferenceIdeal.Read Idealize.ShloMosaic Idealize.ShloMosaic.ValueIdx Cert.LstmSpec

variable (x0 x1 x2 : (⟨S8192x1024, .f32⟩ : BufTy).Contents (Elt Ideal))
  (x3 x5 : (⟨S1024x1024, .f32⟩ : BufTy).Contents (Elt Ideal))
  (x4 x6 : (⟨S1024, .f32⟩ : BufTy).Contents (Elt Ideal))

/-- The product `h · Whᵀ` at (r, j): the transposed weight read back at (j, k). -/
theorem prod_h (r : Fin 8192) (j : Fin 1024) :
    val_main_v1 (F := Ideal) x1 x3 (ix2 r j) = ∑ k : Fin 1024, x1 (ix2 r k) * x3 (ix2 j k) := by
  rw [val_main_v1_apply]
  refine Finset.sum_congr rfl fun k _ => ?_
  rw [val_main_v0_apply]
  have el : lidx_main_v1 (ix2 r j) k = ix2 r k := funext fun a => by match a with | ⟨0, _⟩ => rfl | ⟨1, _⟩ => rfl
  have er : idx_main_v0 (ridx_main_v1 (ix2 r j) k) = ix2 j k := funext fun a => by match a with | ⟨0, _⟩ => rfl | ⟨1, _⟩ => rfl
  rw [el, er]

/-- The product `x · Wxᵀ` at (r, j). -/
theorem prod_x (r : Fin 8192) (j : Fin 1024) :
    val_main_v6 (F := Ideal) x0 x5 (ix2 r j) = ∑ k : Fin 1024, x0 (ix2 r k) * x5 (ix2 j k) := by
  rw [val_main_v6_apply]
  refine Finset.sum_congr rfl fun k _ => ?_
  rw [val_main_v5_apply]
  have el : lidx_main_v6 (ix2 r j) k = ix2 r k := funext fun a => by match a with | ⟨0, _⟩ => rfl | ⟨1, _⟩ => rfl
  have er : idx_main_v5 (ridx_main_v6 (ix2 r j) k) = ix2 j k := funext fun a => by match a with | ⟨0, _⟩ => rfl | ⟨1, _⟩ => rfl
  rw [el, er]

/-- The first bias, broadcast to a row and then down the rows, at (r, j). -/
theorem bias_h (r : Fin 8192) (j : Fin 1024) : val_main_v3 (F := Ideal) x4 (ix2 r j) = x4 (ix1 j) := by
  rw [val_main_v3_apply, val_main_v2_apply]
  exact congrArg x4 (funext fun a => by match a with | ⟨0, _⟩ => rfl)

/-- The second bias at (r, j). -/
theorem bias_x (r : Fin 8192) (j : Fin 1024) : val_main_v9 (F := Ideal) x6 (ix2 r j) = x6 (ix1 j) := by
  rw [val_main_v9_apply, val_main_v8_apply]
  exact congrArg x6 (funext fun a => by match a with | ⟨0, _⟩ => rfl)

/-- The reference's pre-activation at (r, j) is Spec's. -/
theorem pre_eq (r : Fin 8192) (j : Fin 1024) :
    val_main_v10 (F := Ideal) x0 x1 x3 x4 x5 x6 (ix2 r j) = preAt x0 x1 x3 x5 x4 x6 r j := by
  rw [val_main_v10_apply, val_main_v7_apply, val_main_v4_apply, prod_h, prod_x, bias_h, bias_x]
  exact pre_regroup _ _ _ _

/-- The reference's gate at (r, j) is the logistic function of the pre-activation. -/
theorem gate_eq (r : Fin 8192) (j : Fin 1024) :
    val_main_v16 (F := Ideal) x0 x1 x3 x4 x5 x6 (ix2 r j) = Ideal.logistic (preAt x0 x1 x3 x5 x4 x6 r j) := by
  rw [val_main_v16_apply, val_main_v15_apply, val_main_cst_0_apply, val_main_v14_apply, val_main_v13_apply,
    val_main_cst_apply, val_main_v12_apply, val_main_v11_apply, pre_eq]
  exact gate_spelled _

/-- The reference's new cell state is Spec's. -/
theorem cell_eq : val_main_v20 (F := Ideal) x0 x1 x2 x3 x4 x5 x6 = cellArr x0 x1 x2 x3 x5 x4 x6 := by
  funext i
  obtain ⟨r, j, rfl⟩ : ∃ (r : Fin 8192) (j : Fin 1024), i = ix2 r j := ⟨i 0, i 1, eq_ix2 i⟩
  rw [val_main_v20_apply, val_main_v18_apply, val_main_v19_apply, val_main_v17_apply, gate_eq, pre_eq, cellArr_ix2]
  exact (gate_distrib _ _ _).symm

/-- The reference's new hidden state is Spec's. -/
theorem hid_eq : val_main_v22 (F := Ideal) x0 x1 x2 x3 x4 x5 x6 = hidArr x0 x1 x2 x3 x5 x4 x6 := by
  funext i
  obtain ⟨r, j, rfl⟩ : ∃ (r : Fin 8192) (j : Fin 1024), i = ix2 r j := ⟨i 0, i 1, eq_ix2 i⟩
  rw [val_main_v22_apply, val_main_v21_apply, cell_eq, gate_eq, hidArr_ix2, cellArr_ix2]
  rfl

end Cert.ReferenceIdeal.IsSpec

end
-- ==== Proof.KernelPay.lean ====
/-
  The body's arithmetic at one entry of a block. Of the loaded blocks `xb`, `hb`, `cb` ([512, 1024]), the two weight
  matrices `wh`, `wx` ([1024, 1024], already transposed: indexed (input, unit)) and the bias row `b` ([1, 1024]), the
  body forms, at (p, q),  z = Σ_k hb(p,k)·wh(k,q) + Σ_k xb(p,k)·wx(k,q) + b(0,q)  — two products on the matrix unit
  into zero accumulators (a change of float format is the identity at the ideal values), the bias row repeated
  down the rows — then the gate, the new cell state and the new hidden state of Spec.lean.
-/
import proofs.«163879_j33930241639040_2_alg».proof.Proof.Gen.KernelIdeal.Skeleton
import proofs.«163879_j33930241639040_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.LstmSpec

/-! ## The product on the matrix unit, at an entry -/

/-- The left operand's row coordinate is the result's row. -/
theorem lhs_0 (i : S512x1024.Idx) (u : dot_S512x1024_S1024x1024_S512x1024_1_0_0_1_n_n.contr.Idx) :
    (dot_S512x1024_S1024x1024_S512x1024_1_0_0_1_n_n.lhsIdx i u 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- The left operand's column coordinate is the contracted one. -/
theorem lhs_1 (i : S512x1024.Idx) (u : dot_S512x1024_S1024x1024_S512x1024_1_0_0_1_n_n.contr.Idx) :
    (dot_S512x1024_S1024x1024_S512x1024_1_0_0_1_n_n.lhsIdx i u 1).val = (u ⟨0, by decide⟩).val :=
  dot_S512x1024_S1024x1024_S512x1024_1_0_0_1_n_n.lhsIdx_val_of_single rfl i u
/-- The right operand's row coordinate is the contracted one. -/
theorem rhs_0 (i : S512x1024.Idx) (u : dot_S512x1024_S1024x1024_S512x1024_1_0_0_1_n_n.contr.Idx) :
    (dot_S512x1024_S1024x1024_S512x1024_1_0_0_1_n_n.rhsIdx i u 0).val = (u ⟨0, by decide⟩).val :=
  dot_S512x1024_S1024x1024_S512x1024_1_0_0_1_n_n.rhsIdx_val_of_single rfl i u
/-- The right operand's column coordinate is the result's column. -/
theorem rhs_1 (i : S512x1024.Idx) (u : dot_S512x1024_S1024x1024_S512x1024_1_0_0_1_n_n.contr.Idx) :
    (dot_S512x1024_S1024x1024_S512x1024_1_0_0_1_n_n.rhsIdx i u 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512, 1024] by [1024, 1024] product into the zero accumulator, at (p, q): the sum over the contracted
    coordinate of the products of the entries. -/
theorem matmul_at (A : FVec Ideal S512x1024 .bf16) (B : FVec Ideal S1024x1024 .bf16) (p : Fin 512) (q : Fin 1024) :
    matmul (F := Ideal) dot_S512x1024_S1024x1024_S512x1024_1_0_0_1_n_n none A B (constant (F := Ideal) S512x1024 .f32 0x00000000#32) (ix2 p q)
      = ∑ k : Fin 1024, A (ix2 p k) * B (ix2 k q) := by
  show FloatOps.matmul _ none A B _ (ix2 p q) = _
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-! ## The four payloads at an entry -/

variable (xb hb cb : Vec Ideal S512x1024 .f32) (wh wx : Vec Ideal S1024x1024 .bf16) (b : Vec Ideal S1x1024 .f32)

/-- The pre-activation of the block at (p, q). -/
theorem pay1_at (p : Fin 512) (q : Fin 1024) :
    k0_pay1 (F := Ideal) xb hb wh wx b (ix2 p q)
      = pre (fun k => hb (ix2 p k)) (fun k => wh (ix2 k q)) (fun k => xb (ix2 p k)) (fun k => wx (ix2 k q)) (b (ix2 (0 : Fin 1) q)) := by
  unfold k0_pay1 pre
  dsimp only
  rw [shapeCast_self, shapeCast_self, shapeCast_self]
  show (matmul dot_S512x1024_S1024x1024_S512x1024_1_0_0_1_n_n none _ _ _ (ix2 p q) + matmul dot_S512x1024_S1024x1024_S512x1024_1_0_0_1_n_n none _ _ _ (ix2 p q)) + broadcastTo _ _ _ (ix2 p q) = _
  rw [matmul_at, matmul_at, broadcastTo_1b_ab_apply]
  rfl

/-- The gate of the block at (p, q). -/
theorem pay2_at (p : Fin 512) (q : Fin 1024) :
    k0_pay2 (F := Ideal) xb hb wh wx b (ix2 p q)
      = Ideal.logistic (pre (fun k => hb (ix2 p k)) (fun k => wh (ix2 k q)) (fun k => xb (ix2 p k)) (fun k => wx (ix2 k q)) (b (ix2 (0 : Fin 1) q))) := by
  unfold k0_pay2
  show Ideal.logistic (k0_pay1 (F := Ideal) xb hb wh wx b (ix2 p q)) = _
  rw [pay1_at]

/-- The new cell state of the block at (p, q). -/
theorem pay3_at (p : Fin 512) (q : Fin 1024) :
    k0_pay3 (F := Ideal) xb hb wh wx b cb (ix2 p q)
      = cell (pre (fun k => hb (ix2 p k)) (fun k => wh (ix2 k q)) (fun k => xb (ix2 p k)) (fun k => wx (ix2 k q)) (b (ix2 (0 : Fin 1) q))) (cb (ix2 p q)) := by
  unfold k0_pay3
  show k0_pay2 (F := Ideal) xb hb wh wx b (ix2 p q) * (cb (ix2 p q) + Ideal.tanh (k0_pay1 (F := Ideal) xb hb wh wx b (ix2 p q))) = _
  rw [pay2_at, pay1_at]
  rfl

/-- The new hidden state of the block at (p, q). -/
theorem pay4_at (p : Fin 512) (q : Fin 1024) :
    k0_pay4 (F := Ideal) xb hb wh wx b cb (ix2 p q)
      = hid (pre (fun k => hb (ix2 p k)) (fun k => wh (ix2 k q)) (fun k => xb (ix2 p k)) (fun k => wx (ix2 k q)) (b (ix2 (0 : Fin 1) q))) (cb (ix2 p q)) := by
  unfold k0_pay4
  show k0_pay2 (F := Ideal) xb hb wh wx b (ix2 p q) * Ideal.tanh (k0_pay3 (F := Ideal) xb hb wh wx b cb (ix2 p q)) = _
  rw [pay2_at, pay3_at]
  rfl

end Cert.KernelIdeal.Pay

end
-- ==== Proof.KernelBlocks.lean ====
/-
  What the body finds in its blocks, in terms of the argument arrays. The grid has 16 points; at point `t` the three
  row windows hold rows `512·t … 512·t + 511` of `x`, `h`, `c`; the two weight windows hold, at every point, the whole
  transposed weight matrices the host prepared (entry (k, q) of the transpose is entry (q, k) of the argument; the
  change of float format is the identity at the ideal values); the bias window holds the host's `bh + bx` as one row.
  So the pre-activation the body forms at entry (p, q) of its block is Spec's at row `512·t + p`, unit `q`.
-/
import proofs.«163879_j33930241639040_2_alg».proof.Proof.Gen.KernelIdeal.Frame
import proofs.«163879_j33930241639040_2_alg».proof.Proof.Spec
import Idealize.ShloMosaic.PureOps.Ideal
import Idealize.ShloMosaic.Lib.StableHlo.Run
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx Cert.LstmSpec

variable (m : (ℓ : Loc nD τ sig) → Buf (Elt Ideal) ℓ)

/-! ## The index maps, decided over the sixteen points -/

/-- At point `t` the three row windows and the two result windows are at block row `t`, block column 0; the two
    weight windows and the bias window are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The arrays the host prepared before the launch -/

/-- The first weight window's array: `Wh` transposed (and re-formatted). -/
theorem V_wh (c : Dev nD) : (V m c main_v1 : S1024x1024.Idx → EReal)
    = truncf (F := Ideal) .bf16 (transpose S1024x1024 [1, 0] (m ((c : Thread nD τ).loc main_arg3) : FVec Ideal S1024x1024 .f32) transposes_S1024x1024_S1024x1024_1_0) bitsLt_bf16_f32 := by
  dsimp only [Gen.V, Gen.hostOps0]; after_results

/-- The second weight window's array: `Wx` transposed (and re-formatted). -/
theorem V_wx (c : Dev nD) : (V m c main_v3 : S1024x1024.Idx → EReal)
    = truncf (F := Ideal) .bf16 (transpose S1024x1024 [1, 0] (m ((c : Thread nD τ).loc main_arg5) : FVec Ideal S1024x1024 .f32) transposes_S1024x1024_S1024x1024_1_0) bitsLt_bf16_f32 := by
  dsimp only [Gen.V, Gen.hostOps0]; after_results

/-- The bias window's array: the two biases added, as one row. -/
theorem V_b (c : Dev nD) : (V m c main_v5 : S1x1024.Idx → EReal)
    = shapeCast (α := EReal) S1x1024 (addf (F := Ideal) (s := S1024) (φ := .f32) (m ((c : Thread nD τ).loc main_arg4)) (m ((c : Thread nD τ).loc main_arg6))) shapeCasts_S1024_S1x1024 := by
  dsimp only [Gen.V, Gen.hostOps0]; after_results; rfl

/-! ## The blocks at a point, read at an entry -/

/-- `x`'s block at point `t`, entry (p, k), is `x` at row `512·t + p`. -/
theorem xblk_at (c : Dev nD) (t : Fin cfg0.N) (p : Fin 512) (k : Fin 1024) (r : Fin 8192) (hr : r.val = t.val * 512 + p.val) :
    (iblk m c 0 t : Vec Ideal S512x1024 .f32) (ix2 p k) = (m ((c : Thread nD τ).loc main_arg0) : S8192x1024.Idx → EReal) (ix2 r k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- `h`'s block at point `t`, entry (p, k), is `h` at row `512·t + p`. -/
theorem hblk_at (c : Dev nD) (t : Fin cfg0.N) (p : Fin 512) (k : Fin 1024) (r : Fin 8192) (hr : r.val = t.val * 512 + p.val) :
    (iblk m c 1 t : Vec Ideal S512x1024 .f32) (ix2 p k) = (m ((c : Thread nD τ).loc main_arg1) : S8192x1024.Idx → EReal) (ix2 r k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = r.val; rw [e0, hr]; omega
  | ⟨1, _⟩ => show win0_1.index t (1 : Fin 2) * 1024 + 1 * k.val = k.val; rw [e1]; omega

/-- `c`'s block at point `t`, entry (p, k), is `c` at row `512·t + p`. -/
theorem cblk_at (c : Dev nD) (t : Fin cfg0.N) (p : Fin 512) (k : Fin 1024) (r : Fin 8192) (hr : r.val = t.val * 512 + p.val) :
    (iblk m c 2 t : Vec Ideal S512x1024 .f32) (ix2 p k) = (m ((c : Thread nD τ).loc main_arg2) : S8192x1024.Idx → EReal) (ix2 r k) := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 512 + 1 * p.val = r.val; rw [e0, hr]; omega
  | ⟨1, _⟩ => show win0_2.index t (1 : Fin 2) * 1024 + 1 * k.val = k.val; rw [e1]; omega

/-- The first weight window's block, at every point, entry (k, q), is `Wh` at (q, k). -/
theorem whblk_at (c : Dev nD) (t : Fin cfg0.N) (k q : Fin 1024) :
    (iblk m c 3 t : Vec Ideal S1024x1024 .bf16) (ix2 k q) = (m ((c : Thread nD τ).loc main_arg3) : S1024x1024.Idx → EReal) (ix2 q k) := by
  obtain ⟨-, -, -, -, -, -, e0, e1, -⟩ := idx_facts t
  unfold iblk
  rw [View.read_apply]
  show V m c main_v1 _ = _
  rw [V_wh]
  refine transpose_apply [1, 0] _ transposes_S1024x1024_S1024x1024_1_0 _ (ix2 q k) (fun b => ?_)
  match b with
  | ⟨0, _⟩ => show k.val = win0_3.index t (0 : Fin 2) * 1024 + 1 * k.val; rw [e0]; omega
  | ⟨1, _⟩ => show q.val = win0_3.index t (1 : Fin 2) * 1024 + 1 * q.val; rw [e1]; omega

/-- The second weight window's block, at every point, entry (k, q), is `Wx` at (q, k). -/
theorem wxblk_at (c : Dev nD) (t : Fin cfg0.N) (k q : Fin 1024) :
    (iblk m c 4 t : Vec Ideal S1024x1024 .bf16) (ix2 k q) = (m ((c : Thread nD τ).loc main_arg5) : S1024x1024.Idx → EReal) (ix2 q k) := by
  obtain ⟨-, -, -, -, -, -, -, -, e0, e1, -⟩ := idx_facts t
  unfold iblk
  rw [View.read_apply]
  show V m c main_v3 _ = _
  rw [V_wx]
  refine transpose_apply [1, 0] _ transposes_S1024x1024_S1024x1024_1_0 _ (ix2 q k) (fun b => ?_)
  match b with
  | ⟨0, _⟩ => show k.val = win0_4.index t (0 : Fin 2) * 1024 + 1 * k.val; rw [e0]; omega
  | ⟨1, _⟩ => show q.val = win0_4.index t (1 : Fin 2) * 1024 + 1 * q.val; rw [e1]; omega

/-- The bias window's block, at every point, entry (0, q), is `bh q + bx q`. -/
theorem bblk_at (c : Dev nD) (t : Fin cfg0.N) (q : Fin 1024) :
    (iblk m c 5 t : Vec Ideal S1x1024 .f32) (ix2 (0 : Fin 1) q)
      = biasAt (m ((c : Thread nD τ).loc main_arg4)) (m ((c : Thread nD τ).loc main_arg6)) q := by
  obtain ⟨-, -, -, -, -, -, -, -, -, -, e0, e1, -⟩ := idx_facts t
  unfold iblk
  rw [View.read_apply]
  show V m c main_v5 _ = _
  rw [V_b]
  refine (shapeCast_addUnit_apply ![1024] _ shapeCasts_S1024_S1x1024 _).trans ?_
  have ej : (fun a : Fin 1 => (((cfg0.win 5).blk t).view.emb (ix2 (0 : Fin 1) q)) a.succ) = ix1 q :=
    funext fun a => Fin.ext (by
      match a with
      | ⟨0, _⟩ => show win0_5.index t (1 : Fin 2) * 1024 + 1 * q.val = q.val; rw [e1]; omega)
  rw [ej]
  rfl

/-! ## The pre-activation of a block is Spec's -/

/-- At point `t`, entry (p, q), the pre-activation formed from the blocks is Spec's at row `512·t + p`, unit `q`. -/
theorem pre_block (c : Dev nD) (t : Fin cfg0.N) (p : Fin 512) (q : Fin 1024) (r : Fin 8192) (hr : r.val = t.val * 512 + p.val) :
    pre (fun k => (iblk m c 1 t : Vec Ideal S512x1024 .f32) (ix2 p k)) (fun k => (iblk m c 3 t : Vec Ideal S1024x1024 .bf16) (ix2 k q))
        (fun k => (iblk m c 0 t : Vec Ideal S512x1024 .f32) (ix2 p k)) (fun k => (iblk m c 4 t : Vec Ideal S1024x1024 .bf16) (ix2 k q))
        ((iblk m c 5 t : Vec Ideal S1x1024 .f32) (ix2 (0 : Fin 1) q))
      = preAt (m ((c : Thread nD τ).loc main_arg0)) (m ((c : Thread nD τ).loc main_arg1)) (m ((c : Thread nD τ).loc main_arg3))
          (m ((c : Thread nD τ).loc main_arg5)) (m ((c : Thread nD τ).loc main_arg4)) (m ((c : Thread nD τ).loc main_arg6)) r q := by
  have h1 : (fun k => (iblk m c 1 t : Vec Ideal S512x1024 .f32) (ix2 p k)) = fun k => (m ((c : Thread nD τ).loc main_arg1) : S8192x1024.Idx → EReal) (ix2 r k) :=
    funext fun k => hblk_at m c t p k r hr
  have h3 : (fun k => (iblk m c 3 t : Vec Ideal S1024x1024 .bf16) (ix2 k q)) = fun k => (m ((c : Thread nD τ).loc main_arg3) : S1024x1024.Idx → EReal) (ix2 q k) :=
    funext fun k => whblk_at m c t k q
  have h0 : (fun k => (iblk m c 0 t : Vec Ideal S512x1024 .f32) (ix2 p k)) = fun k => (m ((c : Thread nD τ).loc main_arg0) : S8192x1024.Idx → EReal) (ix2 r k) :=
    funext fun k => xblk_at m c t p k r hr
  have h4 : (fun k => (iblk m c 4 t : Vec Ideal S1024x1024 .bf16) (ix2 k q)) = fun k => (m ((c : Thread nD τ).loc main_arg5) : S1024x1024.Idx → EReal) (ix2 q k) :=
    funext fun k => wxblk_at m c t k q
  rw [h1, h3, h0, h4, bblk_at m c t q]
  rfl

end Cert.KernelIdeal.Blocks

end
-- ==== Proof.KernelWhole.lean ====
/-
  From blocks to the two result arrays. Point `t` writes back, for each result, the body's payload of the blocks at `t`;
  entry (p, q) of that payload is Spec's cell at row `512·t + p`, unit `q`, which is where entry (p, q) of the block
  sits in the array. The sixteen blocks of 512 rows tile the 8192 rows (row `r` is in block `r / 512`), so after the
  run the two result arrays are Spec's new hidden state and new cell state, whole.
-/
import proofs.«163879_j33930241639040_2_alg».proof.Proof.Gen.KernelIdeal.Value
import proofs.«163879_j33930241639040_2_alg».proof.Proof.KernelPay
import proofs.«163879_j33930241639040_2_alg».proof.Proof.KernelBlocks

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.LstmSpec
open Idealize.ShloMosaic.Pipeline (Dat)

variable (m : (ℓ : Loc nD τ sig) → Buf (Elt Ideal) ℓ) (ρ : Dev nD → PrngReg)

/-- The zero offsets of a whole-block access, as a constant function. -/
theorem hz : (![0, 0] : Fin 2 → Nat) = fun _ => 0 := funext fun a => by fin_cases a <;> rfl

/-- The row of the array that entry `p` of point `t`'s block sits at. -/
def rowOf (t : Fin cfg0.N) (p : Fin 512) : Fin 8192 :=
  ⟨t.val * 512 + p.val, by have hN : cfg0.N = 16 := N_0; have := t.isLt; have := p.isLt; omega⟩

/-! ## One entry of what a point writes back -/

/-- The new cell state the body stores at entry (p, q) of point `t`'s block is Spec's at that entry's place in the array. -/
theorem cell_block (c : Dev nD) (t : Fin cfg0.N) (p : Fin 512) (q : Fin 1024) :
    k0_pay3 (F := Ideal) (iblk m c 0 t) (iblk m c 1 t) (iblk m c 3 t) (iblk m c 4 t) (iblk m c 5 t) (iblk m c 2 t) (ix2 p q)
      = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (ix2 (rowOf t p) q) := by
  refine (Pay.pay3_at (iblk m c 0 t) (iblk m c 1 t) (iblk m c 2 t) (iblk m c 3 t) (iblk m c 4 t) (iblk m c 5 t) p q).trans ?_
  rw [cellArr_ix2, Blocks.pre_block m c t p q (rowOf t p) rfl, Blocks.cblk_at m c t p q (rowOf t p) rfl]

/-- The new hidden state the body stores at entry (p, q) of point `t`'s block is Spec's at that entry's place in the array. -/
theorem hid_block (c : Dev nD) (t : Fin cfg0.N) (p : Fin 512) (q : Fin 1024) :
    k0_pay4 (F := Ideal) (iblk m c 0 t) (iblk m c 1 t) (iblk m c 3 t) (iblk m c 4 t) (iblk m c 5 t) (iblk m c 2 t) (ix2 p q)
      = hidArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (ix2 (rowOf t p) q) := by
  refine (Pay.pay4_at (iblk m c 0 t) (iblk m c 1 t) (iblk m c 2 t) (iblk m c 3 t) (iblk m c 4 t) (iblk m c 5 t) p q).trans ?_
  rw [hidArr_ix2, Blocks.pre_block m c t p q (rowOf t p) rfl, Blocks.cblk_at m c t p q (rowOf t p) rfl]

/-! ## What a point writes back is a block of Spec's array -/

/-- Entry (p, q) of point `t`'s block of the new-hidden-state array sits at row `512·t + p`, column `q`. -/
theorem emb6 (t : Fin cfg0.N) (p : Fin 512) (q : Fin 1024) :
    ((cfg0.win 6).blk t).view.emb (ix2 p q) = ix2 (rowOf t p) q := by
  obtain ⟨-, -, -, -, -, -, -, -, -, -, -, -, e0, e1, -⟩ := Blocks.idx_facts t
  refine funext fun a => Fin.ext ?_
  match a with
  | ⟨0, _⟩ => show win0_6.index t (0 : Fin 2) * 512 + 1 * p.val = t.val * 512 + p.val; rw [e0]; omega
  | ⟨1, _⟩ => show win0_6.index t (1 : Fin 2) * 1024 + 1 * q.val = q.val; rw [e1]; omega

/-- Entry (p, q) of point `t`'s block of the new-cell-state array sits at row `512·t + p`, column `q`. -/
theorem emb7 (t : Fin cfg0.N) (p : Fin 512) (q : Fin 1024) :
    ((cfg0.win 7).blk t).view.emb (ix2 p q) = ix2 (rowOf t p) q := by
  obtain ⟨-, -, -, -, -, -, -, -, -, -, -, -, -, -, e0, e1⟩ := Blocks.idx_facts t
  refine funext fun a => Fin.ext ?_
  match a with
  | ⟨0, _⟩ => show win0_7.index t (0 : Fin 2) * 512 + 1 * p.val = t.val * 512 + p.val; rw [e0]; omega
  | ⟨1, _⟩ => show win0_7.index t (1 : Fin 2) * 1024 + 1 * q.val = q.val; rw [e1]; omega

/-- Point `t` writes back block `t` of Spec's new hidden state. -/
theorem flushed6_eq (c : Dev nD) (t : Fin cfg0.N) :
    (dats m 0 c).flushed 6 t = ((cfg0.win 6).blk t).view.read (Elt Ideal)
      (hidArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  rw [Value.flushed6]
  unfold out0_6
  rw [View.canon_unit_zero hz]
  simp only [View.ld_unit_zero (S := S512x1024) hz, View.ld_unit_zero (S := S1024x1024) hz, View.ld_unit_zero (S := S1x1024) hz]
  funext y
  obtain ⟨p, q, rfl⟩ : ∃ (p : Fin 512) (q : Fin 1024), y = ix2 p q := ⟨y 0, y 1, eq_ix2 y⟩
  show k0_pay4 (F := Ideal) (iblk m c 0 t) (iblk m c 1 t) (iblk m c 3 t) (iblk m c 4 t) (iblk m c 5 t) (iblk m c 2 t) (ix2 p q)
    = hidArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 6).blk t).view.emb (ix2 p q))
  rw [emb6]
  exact hid_block m c t p q

/-- Point `t` writes back block `t` of Spec's new cell state. -/
theorem flushed7_eq (c : Dev nD) (t : Fin cfg0.N) :
    (dats m 0 c).flushed 7 t = ((cfg0.win 7).blk t).view.read (Elt Ideal)
      (cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  rw [Value.flushed7]
  unfold out0_7
  rw [View.canon_unit_zero hz]
  simp only [View.ld_unit_zero (S := S512x1024) hz, View.ld_unit_zero (S := S1024x1024) hz, View.ld_unit_zero (S := S1x1024) hz]
  funext y
  obtain ⟨p, q, rfl⟩ : ∃ (p : Fin 512) (q : Fin 1024), y = ix2 p q := ⟨y 0, y 1, eq_ix2 y⟩
  show k0_pay3 (F := Ideal) (iblk m c 0 t) (iblk m c 1 t) (iblk m c 3 t) (iblk m c 4 t) (iblk m c 5 t) (iblk m c 2 t) (ix2 p q)
    = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 7).blk t).view.emb (ix2 p q))
  rw [emb7]
  exact cell_block m c t p q

/-! ## The blocks tile the arrays -/

/-- An index is in point `t`'s block of the new-hidden-state array iff each coordinate is in the block's range. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6_0).slice (win0_6.rect t)).set ↔ _
  rw [View.set_slice_whole, Rect.mem_set_unit]
  exact Iff.rfl

/-- An index is in point `t`'s block of the new-cell-state array iff each coordinate is in the block's range. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v6_1).slice (win0_7.rect t)).set ↔ _
  rw [View.set_slice_whole, Rect.mem_set_unit]
  exact Iff.rfl

/-- The point whose block holds row `r`: `r / 512`. -/
def pointOf (i : S8192x1024.Idx) : Fin cfg0.N :=
  ⟨(i 0).val / 512, by have hN : cfg0.N = 16 := N_0; have h : (i 0).val < 8192 := (i 0).isLt; omega⟩

/-- Every index of the new-hidden-state array is in the block of the point `row / 512`. -/
theorem cover6 (i : S8192x1024.Idx) : ∃ t : Fin cfg0.N, (cfg0.win 6).flush t = true ∧ i ∈ ((cfg0.win 6).blk t).view.set := by
  refine ⟨pointOf i, flush0_6 _, ?_⟩
  obtain ⟨-, -, -, -, -, -, -, -, -, -, -, -, e0, e1, -⟩ := Blocks.idx_facts (pointOf i)
  have h1 : (i 1).val < 1024 := (i 1).isLt
  rw [mem_blk6]
  intro a
  match a with
  | ⟨0, _⟩ => show win0_6.index (pointOf i) (0 : Fin 2) * 512 ≤ (i 0).val ∧ (i 0).val < win0_6.index (pointOf i) (0 : Fin 2) * 512 + 512
              rw [e0]; show (i 0).val / 512 * 512 ≤ (i 0).val ∧ (i 0).val < (i 0).val / 512 * 512 + 512; omega
  | ⟨1, _⟩ => show win0_6.index (pointOf i) (1 : Fin 2) * 1024 ≤ (i 1).val ∧ (i 1).val < win0_6.index (pointOf i) (1 : Fin 2) * 1024 + 1024
              rw [e1]; omega

/-- Every index of the new-cell-state array is in the block of the point `row / 512`. -/
theorem cover7 (i : S8192x1024.Idx) : ∃ t : Fin cfg0.N, (cfg0.win 7).flush t = true ∧ i ∈ ((cfg0.win 7).blk t).view.set := by
  refine ⟨pointOf i, flush0_7 _, ?_⟩
  obtain ⟨-, -, -, -, -, -, -, -, -, -, -, -, -, -, e0, e1⟩ := Blocks.idx_facts (pointOf i)
  have h1 : (i 1).val < 1024 := (i 1).isLt
  rw [mem_blk7]
  intro a
  match a with
  | ⟨0, _⟩ => show win0_7.index (pointOf i) (0 : Fin 2) * 512 ≤ (i 0).val ∧ (i 0).val < win0_7.index (pointOf i) (0 : Fin 2) * 512 + 512
              rw [e0]; show (i 0).val / 512 * 512 ≤ (i 0).val ∧ (i 0).val < (i 0).val / 512 * 512 + 512; omega
  | ⟨1, _⟩ => show win0_7.index (pointOf i) (1 : Fin 2) * 1024 ≤ (i 1).val ∧ (i 1).val < win0_7.index (pointOf i) (1 : Fin 2) * 1024 + 1024
              rw [e1]; omega

/-! ## The arrays after the run, and the run -/

/-- After the run the first result array is Spec's new hidden state. -/
theorem final6 (c : Dev nD) : (dats m 0 c).arrAt 6 cfg0.N = hidArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 6 _ (fun t _ => flushed6_eq m c t) cover6

/-- After the run the second result array is Spec's new cell state. -/
theorem final7 (c : Dev nD) : (dats m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 7 _ (fun t _ => flushed7_eq m c t) cover7

/-- Every weakly fair execution of the kernel's program ends with the two results at Spec's arrays of the arguments,
    and the arguments unchanged. -/
theorem run : θ_run defs (onTc (τ := τ) (main (F := Ideal))) ⟨m, fun _ => 0, ρ⟩ fun r => ∀ c : Dev nD,
      r.2.mem ((c : Thread nD τ).loc main_v6_0) = hidArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_v6_1) = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Value.run_blocks m ρ)

end Cert.KernelIdeal.Whole

end
-- ==== Proof.lean ====
/-
  An LSTM cell whose four gates share one pre-activation, as a 16-point pipelined kernel over blocks of 512 batch
  rows, against the plain array program. Both compute, at row `r` and hidden unit `j`,

      z = Σ_k h(r,k)·Wh(j,k) + Σ_k x(r,k)·Wx(j,k) + bh(j) + bx(j),    s = 1 / (1 + e^(-z)),
      c' = s · (c(r,j) + tanh z),                                      h' = s · tanh c'.

  The kernel's host side transposes the two weight matrices and adds the two biases once; its body multiplies
  on the matrix unit in a narrower float format (the identity at the ideal values), adds the summed bias, and forms
  `s · (c + g)`. The reference adds the four summands of `z` in another order and forms `s·c + s·g`. On the extended
  reals the two agree: addition is commutative and associative at the infinities too, and the gate `s` is a real
  number that is not negative, so it distributes over any sum (Proof/Spec.lean). No finiteness of the inputs is used.

  The modules: Proof/Spec.lean (the cell as one function of the arguments, and the two laws), Proof/RefIsSpec.lean
  (the reference computes it), Proof/KernelPay.lean (the body's arithmetic at one entry of a block),
  Proof/KernelBlocks.lean (what the blocks hold, in terms of the arguments), Proof/KernelWhole.lean (the sixteen
  blocks tile the result arrays, which therefore hold the cell). The three frames are the two kernels' runs and the
  reference's run with the results dropped; the idealization rewrote nothing, so it has nothing to preserve.
-/
import proofs.«163879_j33930241639040_2_alg».proof.Defs
import proofs.«163879_j33930241639040_2_alg».proof.Proof.Gen.Kernel
import proofs.«163879_j33930241639040_2_alg».proof.Proof.Gen.Kernel.Frame
import proofs.«163879_j33930241639040_2_alg».proof.Proof.Gen.KernelIdeal
import proofs.«163879_j33930241639040_2_alg».proof.Proof.Gen.KernelIdeal.Frame
import proofs.«163879_j33930241639040_2_alg».proof.Proof.Gen.KernelIdeal.Value
import proofs.«163879_j33930241639040_2_alg».proof.Proof.Gen.ReferenceIdeal
import proofs.«163879_j33930241639040_2_alg».proof.Proof.Gen.ReferenceIdeal.Run
import proofs.«163879_j33930241639040_2_alg».proof.Proof.Gen.ReferenceIdeal.Read
import proofs.«163879_j33930241639040_2_alg».proof.Proof.Gen.Pre_finite_inputs
import proofs.«163879_j33930241639040_2_alg».proof.Proof.RefIsSpec
import proofs.«163879_j33930241639040_2_alg».proof.Proof.KernelWhole
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run, with what it says of the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the printed text read at the ideal values: no rewrite to account for. -/
theorem preserves : Cert.preserves_Kernel_KernelIdeal := trivial

/-- From memories that agree on the seven arguments, the kernel ends with its two results at the cell's new hidden
    state and new cell state (Proof/KernelWhole.lean), and the reference ends with its two results at the same two
    arrays (Proof/RefIsSpec.lean). -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [Cert.ReferenceIdeal.Read.val_main_v22_eq, Cert.ReferenceIdeal.IsSpec.hid_eq, a0, a1, a2, a3, a4, a5, a6]
  · obtain ⟨a0, a1, a2, a3, a4, a5, a6⟩ := hagree c
    rw [Cert.ReferenceIdeal.Read.val_main_v20_eq, Cert.ReferenceIdeal.IsSpec.cell_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
